-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128x128 .f32) (main_arg4 : FVec F S128x128 .f32) (main_arg5 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x256 : Shape := ⟨2, ![128, 256]⟩
abbrev S10000x256 : Shape := ⟨2, ![10000, 256]⟩
abbrev S400x10000 : Shape := ⟨2, ![400, 10000]⟩
abbrev S400x256 : Shape := ⟨2, ![400, 256]⟩
abbrev S400x128 : Shape := ⟨2, ![400, 128]⟩

abbrev nBuf : Space → Nat
  | .hbm => 11
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x256, .f32⟩
  | .hbm, ⟨7, _⟩ => ⟨S128x256, .f32⟩
  | .hbm, ⟨8, _⟩ => ⟨S10000x256, .f32⟩
  | .hbm, ⟨9, _⟩ => ⟨S10000x256, .f32⟩
  | .hbm, ⟨10, _⟩ => ⟨S10000x128, .f32⟩
  | .local _ .vmem, ⟨0, _⟩ => ⟨S10000x128, .f32⟩
  | .local _ .vmem, ⟨1, _⟩ => ⟨S128x256, .f32⟩
  | .local _ .vmem, ⟨2, _⟩ => ⟨S10000x256, .f32⟩
  | .local _ .vmem, ⟨3, _⟩ => ⟨S400x10000, .f32⟩
  | .local _ .vmem, ⟨4, _⟩ => ⟨S400x10000, .f32⟩
  | .local _ .vmem, ⟨5, _⟩ => ⟨S10000x256, .f32⟩
  | .local _ .vmem, ⟨6, _⟩ => ⟨S128x256, .f32⟩
  | .local _ .vmem, ⟨7, _⟩ => ⟨S400x256, .f32⟩
  | .local _ .vmem, ⟨8, _⟩ => ⟨S400x256, .f32⟩
  | .local _ .vmem, ⟨9, _⟩ => ⟨S400x10000, .f32⟩
  | .local _ .vmem, ⟨10, _⟩ => ⟨S400x10000, .f32⟩
  | .local _ .vmem, ⟨11, _⟩ => ⟨S10000x256, .f32⟩
  | .local _ .vmem, ⟨12, _⟩ => ⟨S400x128, .f32⟩
  | .local _ .vmem, ⟨13, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  concatenates_S128x128_S128x128_S128x256_d1 : Shape.Concatenates [S128x128, S128x128] S128x256 1
  inb_S10000x128_S10000x128_0_0 : ∀ a, (![0, 0] : Fin 2 → Nat) a + S10000x128.size a ≤ S10000x128.size a
  h_S10000x128 : 0 < S10000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S10000x256_S10000x256_0_0 : ∀ a, (![0, 0] : Fin 2 → Nat) a + S10000x256.size a ≤ S10000x256.size a
  h_S10000x256 : 0 < S10000x256.numel
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  shapeCasts_S10000x256_S10000x256 : S10000x256.ShapeCasts S10000x256
  slices_S400x256_o0_128_S400x128 : S400x256.Slices ![0, 128] S400x128
  slices_S400x256_o0_0_S400x128 : S400x256.Slices ![0, 0] S400x128
  inb_S400x256_S400x256_0_0 : ∀ a, (![0, 0] : Fin 2 → Nat) a + S400x256.size a ≤ S400x256.size a
  h_S400x256 : 0 < S400x256.numel
  inb_S400x128_S400x128_0_0 : ∀ a, (![0, 0] : Fin 2 → Nat) a + S400x128.size a ≤ S400x128.size a
  h_S400x128 : 0 < S400x128.numel
  dot_S10000x128_S128x256_S10000x256_1_0_0_1_n_n_wf : DotDims.WF S10000x128 S128x256 S10000x256 [1] [0] [0] [1] [] []
  dot_S400x10000_S10000x256_S400x256_1_0_0_1_n_n_wf : DotDims.WF S400x10000 S10000x256 S400x256 [1] [0] [0] [1] [] []
  dot_S400x128_S128x256_S400x256_1_0_0_1_n_n_wf : DotDims.WF S400x128 S128x256 S400x256 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .f32 = 32 ∨ (Rect.block (s := S10000x256) S10000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x256.size a ≤ S10000x256.size a
  hwx1_3 : ∀ i : grid1.Coords, EltTy.bits .f32 = 32 ∨ (Rect.block (s := S10000x256) S400x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .f32 = 32 ∨ (Rect.block (s := S10000x256) S10000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v2) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S400x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S400x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S_, .f32⟩
  | .hbm, ⟨29, _⟩ => ⟨S10000x128, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelRun.lean ====
/-
  The idealized kernel's run with its result array named.

  The program is three kernel launches after two host concatenations.  Its buffers' contents at each boundary are a
  fold from the launch memory: the contents after the concatenations, then after each launch the launch's arrays at
  what its write-backs leave and every other buffer as it was.  Every weakly fair execution terminates with every
  unscoped buffer at the last boundary's contents.  Read at the six arguments this says they end unchanged; read at
  the third launch's result buffer it names the program's result, which is what is added here.
-/
import proofs.«106500_g21887153340606_cont_8to1_464_4_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the six arguments as launched. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.RunValue

end
-- ==== Proof.Spec.lean ====
/-
  A two-layer gated graph convolution over the extended reals, entry by entry.

  One layer takes node features h (n rows, 128 columns), a dense adjacency matrix adj (n by n) and two weight
  matrices W and G (128 by 128).  Its entry at row r and column c is

      logistic ((adj · (h · G)) (r, c)) · (adj · (h · W)) (r, c),

  every product a plain row-by-column sum.  The network applies the layer to x with (W0, G0), takes the larger of
  each entry and zero, and applies the layer again with (W1, G1).

  The same numbers arise in a fused arrangement: project once onto the 256 columns of [W | G], multiply by the
  adjacency once, and read the support value in column c and the gate value in column 128 + c of the result.
  Column c of h · [W | G] is column c of h · W, and column 128 + c is column c of h · G, summand by summand, so the
  two arrangements agree by congruence of sums alone: no sum is reordered and no factor moved across a sum.  The
  agreement therefore holds on all extended reals, at the infinities too.
-/
import Idealize.ShloMosaic.PureOps.Ideal
import Idealize.ShloMosaic.Lib.ValueIdx

noncomputable section

namespace GatedConv

open Idealize.ShloMosaic Idealize.ShloMosaic.ValueIdx

/-- A matrix of extended reals with a rows and b columns, as a function of its two-coordinate index. -/
abbrev Mat (a b : ℕ) : Type := (⟨2, ![a, b]⟩ : Shape).Idx → EReal

/-- The matrix whose entry at row r and column c is f r c. -/
def ofEntries {a b : ℕ} (f : Fin a → Fin b → EReal) : Mat a b :=
  fun j => f ⟨(j 0).val, idx2_lt0 j⟩ ⟨(j 1).val, idx2_lt1 j⟩

theorem ofEntries_ix2 {a b : ℕ} (f : Fin a → Fin b → EReal) (r : Fin a) (c : Fin b) :
    ofEntries f (ix2 r c) = f r c := rfl

/-- A matrix is the matrix of its entries. -/
theorem eq_ofEntries {a b : ℕ} (X : Mat a b) : X = ofEntries fun r c => X (ix2 r c) :=
  funext fun j => congrArg X (eq_ix2 j)

/-- Two matrices with the same entries are equal. -/
theorem mat_ext {a b : ℕ} {X Y : Mat a b} (h : ∀ (r : Fin a) (c : Fin b), X (ix2 r c) = Y (ix2 r c)) : X = Y :=
  funext fun j => by rw [eq_ix2 j]; exact h _ _

/-- Entry (r, c) of the product of A (M by K) and B (K by N): the sum over k of A(r, k) · B(k, c). -/
def mm {M K N : ℕ} (A : Mat M K) (B : Mat K N) (r : Fin M) (c : Fin N) : EReal :=
  ∑ k : Fin K, A (ix2 r k) * B (ix2 k c)

/-- An entry of a product depends on the left factor only through the row it contracts over. -/
theorem mm_congr_row {M M' K N : ℕ} (A : Mat M K) (A' : Mat M' K) (B : Mat K N) (r : Fin M) (r' : Fin M') (c : Fin N)
    (h : ∀ k, A (ix2 r k) = A' (ix2 r' k)) : mm A B r c = mm A' B r' c :=
  Finset.sum_congr rfl fun k _ => by rw [h k]

/-- An entry of a product depends on the right factor only through the column it contracts over. -/
theorem mm_congr_col {M K N N' : ℕ} (A : Mat M K) (B : Mat K N) (B' : Mat K N') (r : Fin M) (c : Fin N) (c' : Fin N')
    (h : ∀ k, B (ix2 k c) = B' (ix2 k c')) : mm A B r c = mm A B' r c' :=
  Finset.sum_congr rfl fun k _ => by rw [h k]

/-- The gate: the logistic function of the gate value, times the support value. -/
def gated (s g : EReal) : EReal := Ideal.logistic g * s

/-- Column c of the left half of a 256-column matrix. -/
def lo (c : Fin 128) : Fin 256 := ⟨c.val, by have := c.isLt; omega⟩
/-- Column c of the right half of a 256-column matrix. -/
def hi (c : Fin 128) : Fin 256 := ⟨128 + c.val, by have := c.isLt; omega⟩

/-- One gated convolution at entry (r, c), in the separate arrangement:
    logistic ((adj · (h · G))(r, c)) · (adj · (h · W))(r, c). -/
def conv {M n : ℕ} (A : Mat M n) (h : Mat n 128) (W G : Mat 128 128) (r : Fin M) (c : Fin 128) : EReal :=
  gated (mm A (ofEntries (mm h W)) r c) (mm A (ofEntries (mm h G)) r c)

/-- The larger of each entry and zero. -/
def relu {a b : ℕ} (f : Fin a → Fin b → EReal) : Fin a → Fin b → EReal := fun r c => max (f r c) 0

/-- The network's result: the layer on x with (W0, G0), the larger of each entry and zero, the layer again with
    (W1, G1). -/
def logits (x : Mat 10000 128) (adj : Mat 10000 10000) (W0 G0 W1 G1 : Mat 128 128) : Mat 10000 128 :=
  ofEntries (conv adj (ofEntries (relu (conv adj x W0 G0))) W1 G1)

/-- The fused arrangement at entry (r, c): with S the projection onto 256 columns, the support value is
    (A · S)(r, c) and the gate value (A · S)(r, 128 + c). -/
def fused {M n : ℕ} (A : Mat M n) (S : Mat n 256) (r : Fin M) (c : Fin 128) : EReal :=
  gated (mm A S r (lo c)) (mm A S r (hi c))

/-- The fused arrangement reads the left factor only through row r. -/
theorem fused_congr_row {M M' n : ℕ} (A : Mat M n) (A' : Mat M' n) (S : Mat n 256) (r : Fin M) (r' : Fin M') (c : Fin 128)
    (h : ∀ k, A (ix2 r k) = A' (ix2 r' k)) : fused A S r c = fused A' S r' c := by
  unfold fused
  rw [mm_congr_row A A' S r r' (lo c) h, mm_congr_row A A' S r r' (hi c) h]

/-- WG is W and G side by side: its column c is W's column c, its column 128 + c is G's column c. -/
structure SideBySide (WG : Mat 128 256) (W G : Mat 128 128) : Prop where
  left : ∀ (l : Fin 128) (c : Fin 128), WG (ix2 l (lo c)) = W (ix2 l c)
  right : ∀ (l : Fin 128) (c : Fin 128), WG (ix2 l (hi c)) = G (ix2 l c)

/-- With the weights side by side, the fused arrangement over the one projection h · [W | G] is the separate
    arrangement: each column of the projection is the matching column of h · W or of h · G, summand by summand. -/
theorem fused_proj_eq_conv {M n : ℕ} (A : Mat M n) (h : Mat n 128) (WG : Mat 128 256) (W G : Mat 128 128)
    (hs : SideBySide WG W G) (r : Fin M) (c : Fin 128) :
    fused A (ofEntries (mm h WG)) r c = conv A h W G r c := by
  unfold fused conv
  have e1 : mm A (ofEntries (mm h WG)) r (lo c) = mm A (ofEntries (mm h W)) r c :=
    mm_congr_col A _ _ r (lo c) c fun k => by
      rw [ofEntries_ix2, ofEntries_ix2]
      exact mm_congr_col h WG W k (lo c) c fun l => hs.left l c
  have e2 : mm A (ofEntries (mm h WG)) r (hi c) = mm A (ofEntries (mm h G)) r c :=
    mm_congr_col A _ _ r (hi c) c fun k => by
      rw [ofEntries_ix2, ofEntries_ix2]
      exact mm_congr_col h WG G k (hi c) c fun l => hs.right l c
  rw [e1, e2]

/-- The fused network: project x onto [W0 | G0], gate through the adjacency and keep the larger of each entry and
    zero, project onto [W1 | G1], gate through the adjacency again.  It is the network's result. -/
theorem fused_network_eq_logits (x : Mat 10000 128) (adj : Mat 10000 10000) (WG0 WG1 : Mat 128 256)
    (W0 G0 W1 G1 : Mat 128 128) (h0 : SideBySide WG0 W0 G0) (h1 : SideBySide WG1 W1 G1) :
    ofEntries (fused adj (ofEntries (mm (ofEntries (relu (fused adj (ofEntries (mm x WG0))))) WG1)))
      = logits x adj W0 G0 W1 G1 := by
  unfold logits
  have e0 : (fused adj (ofEntries (mm x WG0)) : Fin 10000 → Fin 128 → EReal) = conv adj x W0 G0 :=
    funext fun r => funext fun c => fused_proj_eq_conv adj x WG0 W0 G0 h0 r c
  rw [e0]
  exact congrArg ofEntries (funext fun r => funext fun c => fused_proj_eq_conv adj _ WG1 W1 G1 h1 r c)

end GatedConv

end
-- ==== Proof.LibMatmulNN.lean ====
/-
  A row-by-column matrix product read at an index, over the extended reals, for any record of dimension numbers.

  For dimension numbers that contract the left operand's second axis with the right operand's first (left
  operand M×K, right operand K×N, no batch axis) the sum over the record's contraction index is, at row r and
  column c, the sum over k < K of lhs(r, k) · rhs(k, c).  The record is a parameter and the operands are plain
  functions to the extended reals, so the lemma serves operands of any float formats; the record's coordinate
  facts are hypotheses, each closed by unfolding at a literal record.
-/
import Idealize.ShloMosaic.PureOps.Ideal.Laws
import Idealize.ShloMosaic.Lib.ValueIdx

noncomputable section

namespace LibMatmulNN

open Idealize.ShloMosaic Idealize.ShloMosaic.ValueIdx

/-- The sum a row-by-column product is, with the contraction index a plain number below K: for dimension numbers
    that contract the left operand's second axis with the right operand's first (no batch axis), the entry at
    (r, c) sums lhs(r, k) · rhs(k, c) over k < K. -/
theorem contr_sum {M K N : Nat} (D : DotDims ⟨2, ![M, K]⟩ ⟨2, ![K, N]⟩ ⟨2, ![M, N]⟩)
    (hr : D.contr.rank = 1) (hs : D.contr.size ⟨0, by omega⟩ = K)
    (hlc : D.lhsContracting = [1]) (hrc : D.rhsContracting = [0])
    (hl0 : ∀ (j : (⟨2, ![M, N]⟩ : Shape).Idx) (k : D.contr.Idx), (D.lhsIdx j k 0).val = (j 0).val)
    (hr1 : ∀ (j : (⟨2, ![M, N]⟩ : Shape).Idx) (k : D.contr.Idx), (D.rhsIdx j k 1).val = (j 1).val)
    (lhs : (⟨2, ![M, K]⟩ : Shape).Idx → EReal) (rhs : (⟨2, ![K, N]⟩ : Shape).Idx → EReal) (r : Fin M) (c : Fin N) :
    (∑ k : D.contr.Idx, lhs (D.lhsIdx (ix2 r c) k) * rhs (D.rhsIdx (ix2 r c) k))
      = ∑ k : Fin K, lhs (ix2 r k) * rhs (ix2 k c) := by
  rw [← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k :=
    funext fun a => Fin.ext (by
      match a with
      | ⟨0, _⟩ => exact hl0 _ _
      | ⟨1, _⟩ => exact (D.lhsIdx_val_of_single hlc (ix2 r c) _).trans hk)
  have er : D.rhsIdx (ix2 r c) ((contrEquiv1 D K hr hs).symm k) = ix2 k c :=
    funext fun a => Fin.ext (by
      match a with
      | ⟨0, _⟩ => exact (D.rhsIdx_val_of_single hrc (ix2 r c) _).trans hk
      | ⟨1, _⟩ => exact hr1 _ _)
  rw [el, er]

end LibMatmulNN

end
-- ==== Proof.LibSlice2.lean ====
/-
  A rectangular cut of a matrix, read at an index: entry (a, b) of the cut that starts at row o₀ and column o₁ is
  entry (o₀ + a, o₁ + b) of the matrix.
-/
import Idealize.ShloMosaic.Lib.ValueIdx
import Idealize.ShloMosaic.Lib.Pipeline.Value

namespace LibSlice2

open Idealize.ShloMosaic Idealize.ShloMosaic.ValueIdx

variable {α : Type}

/-- A matrix cut from (o₀, o₁) reads, at (a, b), the matrix at (a', b') with a' = o₀ + a and b' = o₁ + b. -/
theorem slice2_apply {n0 n1 m0 m1 : ℕ} (o0 o1 : ℕ) (X : (⟨2, ![n0, n1]⟩ : Shape).Idx → α)
    (h : (⟨2, ![n0, n1]⟩ : Shape).Slices ![o0, o1] ⟨2, ![m0, m1]⟩)
    (a : Fin m0) (b : Fin m1) (a' : Fin n0) (b' : Fin n1) (ha : a'.val = o0 + a.val) (hb : b'.val = o1 + b.val) :
    extractStridedSlice ⟨2, ![m0, m1]⟩ ![o0, o1] X h (ix2 a b) = X (ix2 a' b') :=
  extractStridedSlice_apply _ _ _ _ _ (fun ax => by
    match ax with
    | ⟨0, _⟩ => exact ha
    | ⟨1, _⟩ => exact hb)

end LibSlice2
-- ==== Proof.Payload.lean ====
/-
  What each kernel body stores, read at one entry, over the extended reals.

  The first body stores the product of its two operands.  The other two multiply a block of 400 adjacency rows by
  the 256-column projection, read the support value in column c and the gate value in column 128 + c of the product,
  and gate; the second of them then keeps the larger of each entry and zero and multiplies by the next layer's
  side-by-side weights.  A change of float format is the identity on the extended reals, a product into a zero
  accumulator is the plain row-by-column sum, and a column range of a matrix reads the matrix at the shifted column.
-/
import proofs.«106500_g21887153340606_cont_8to1_464_4_alg».proof.Proof.Gen.KernelIdeal.Skeleton
import proofs.«106500_g21887153340606_cont_8to1_464_4_alg».proof.Proof.Spec
import proofs.«106500_g21887153340606_cont_8to1_464_4_alg».proof.Proof.LibMatmulNN
import proofs.«106500_g21887153340606_cont_8to1_464_4_alg».proof.Proof.LibSlice2
import Idealize.ShloMosaic.PureOps.Ideal.Laws
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx GatedConv

/-! ## The three records of dimension numbers: rows from the left operand, columns from the right -/

theorem dA_l0 (j : _) (k : dot_S10000x128_S128x256_S10000x256_1_0_0_1_n_n.contr.Idx) : (dot_S10000x128_S128x256_S10000x256_1_0_0_1_n_n.lhsIdx j k 0).val = (j 0).val := by
  unfold DotDims.lhsIdx
  rw [dif_neg (show ¬(0 : Fin S10000x128.rank) ∈ dot_S10000x128_S128x256_S10000x256_1_0_0_1_n_n.lhsBatch by decide), dif_pos (show (0 : Fin S10000x128.rank) ∈ dot_S10000x128_S128x256_S10000x256_1_0_0_1_n_n.lhsNonContracting by decide)]
  rfl
theorem dA_r1 (j : _) (k : dot_S10000x128_S128x256_S10000x256_1_0_0_1_n_n.contr.Idx) : (dot_S10000x128_S128x256_S10000x256_1_0_0_1_n_n.rhsIdx j k 1).val = (j 1).val := by
  unfold DotDims.rhsIdx
  rw [dif_neg (show ¬(1 : Fin S128x256.rank) ∈ dot_S10000x128_S128x256_S10000x256_1_0_0_1_n_n.rhsBatch by decide), dif_pos (show (1 : Fin S128x256.rank) ∈ dot_S10000x128_S128x256_S10000x256_1_0_0_1_n_n.rhsNonContracting by decide)]
  rfl

theorem dB_l0 (j : _) (k : dot_S400x10000_S10000x256_S400x256_1_0_0_1_n_n.contr.Idx) : (dot_S400x10000_S10000x256_S400x256_1_0_0_1_n_n.lhsIdx j k 0).val = (j 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem dB_r1 (j : _) (k : dot_S400x10000_S10000x256_S400x256_1_0_0_1_n_n.contr.Idx) : (dot_S400x10000_S10000x256_S400x256_1_0_0_1_n_n.rhsIdx j k 1).val = (j 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

theorem dC_l0 (j : _) (k : dot_S400x128_S128x256_S400x256_1_0_0_1_n_n.contr.Idx) : (dot_S400x128_S128x256_S400x256_1_0_0_1_n_n.lhsIdx j k 0).val = (j 0).val := by
  unfold DotDims.lhsIdx
  rw [dif_neg (show ¬(0 : Fin S400x128.rank) ∈ dot_S400x128_S128x256_S400x256_1_0_0_1_n_n.lhsBatch by decide), dif_pos (show (0 : Fin S400x128.rank) ∈ dot_S400x128_S128x256_S400x256_1_0_0_1_n_n.lhsNonContracting by decide)]
  rfl
theorem dC_r1 (j : _) (k : dot_S400x128_S128x256_S400x256_1_0_0_1_n_n.contr.Idx) : (dot_S400x128_S128x256_S400x256_1_0_0_1_n_n.rhsIdx j k 1).val = (j 1).val := by
  unfold DotDims.rhsIdx
  rw [dif_neg (show ¬(1 : Fin S128x256.rank) ∈ dot_S400x128_S128x256_S400x256_1_0_0_1_n_n.rhsBatch by decide), dif_pos (show (1 : Fin S128x256.rank) ∈ dot_S400x128_S128x256_S400x256_1_0_0_1_n_n.rhsNonContracting by decide)]
  rfl

/-! ## The products at an entry -/

/-- The projection's product into a zero accumulator, at entry (r, c). -/
theorem matmulA_apply (a : FVec Ideal S10000x128 .f32) (b : FVec Ideal S128x256 .f32) (r : Fin 10000) (c : Fin 256) :
    matmul (F := Ideal) dot_S10000x128_S128x256_S10000x256_1_0_0_1_n_n none a b (constant S10000x256 .f32 0x00000000#32) (ix2 r c) = mm a b r c := by
  simp only [matmul]
  rw [Ideal.matmul_constant_zero_apply]
  exact LibMatmulNN.contr_sum dot_S10000x128_S128x256_S10000x256_1_0_0_1_n_n rfl rfl rfl rfl dA_l0 dA_r1 a b r c

/-- A block of adjacency rows times the projection, into a zero accumulator, at entry (p, c); the operands may be of
    any float formats. -/
theorem matmulB_apply {φ₁ φ₂ : FTy} (a : FVec Ideal S400x10000 φ₁) (b : FVec Ideal S10000x256 φ₂) (p : Fin 400) (c : Fin 256) :
    matmul (F := Ideal) dot_S400x10000_S10000x256_S400x256_1_0_0_1_n_n none a b (constant S400x256 .f32 0x00000000#32) (ix2 p c) = mm a b p c := by
  simp only [matmul]
  rw [Ideal.matmul_constant_zero_apply]
  exact LibMatmulNN.contr_sum dot_S400x10000_S10000x256_S400x256_1_0_0_1_n_n rfl rfl rfl rfl dB_l0 dB_r1 a b p c

/-- A block of activations times the side-by-side weights, into a zero accumulator, at entry (p, c). -/
theorem matmulC_apply (a : FVec Ideal S400x128 .f32) (b : FVec Ideal S128x256 .f32) (p : Fin 400) (c : Fin 256) :
    matmul (F := Ideal) dot_S400x128_S128x256_S400x256_1_0_0_1_n_n none a b (constant S400x256 .f32 0x00000000#32) (ix2 p c) = mm a b p c := by
  simp only [matmul]
  rw [Ideal.matmul_constant_zero_apply]
  exact LibMatmulNN.contr_sum dot_S400x128_S128x256_S400x256_1_0_0_1_n_n rfl rfl rfl rfl dC_l0 dC_r1 a b p c

/-! ## The gate on a block -/

/-- The logistic function of the right half times the left half of a 400-by-256 block, at entry (p, c), is the gate
    of the block's columns c and 128 + c. -/
theorem gate_apply (v5 : FVec Ideal S400x256 .f32) (p : Fin 400) (c : Fin 128) :
    mulf (F := Ideal) (logistic (extractStridedSlice S400x128 ![0, 128] v5 slices_S400x256_o0_128_S400x128))
        (extractStridedSlice S400x128 ![0, 0] v5 slices_S400x256_o0_0_S400x128) (ix2 p c)
      = gated (v5 (ix2 p (lo c))) (v5 (ix2 p (hi c))) := by
  have e1 : extractStridedSlice S400x128 ![0, 128] v5 slices_S400x256_o0_128_S400x128 (ix2 p c) = v5 (ix2 p (hi c)) :=
    LibSlice2.slice2_apply 0 128 v5 slices_S400x256_o0_128_S400x128 p c p (hi c) (by simp) rfl
  have e2 : extractStridedSlice S400x128 ![0, 0] v5 slices_S400x256_o0_0_S400x128 (ix2 p c) = v5 (ix2 p (lo c)) :=
    LibSlice2.slice2_apply 0 0 v5 slices_S400x256_o0_0_S400x128 p c p (lo c) (by simp) (by simp [lo])
  show Ideal.logistic (extractStridedSlice S400x128 ![0, 128] v5 slices_S400x256_o0_128_S400x128 (ix2 p c))
      * extractStridedSlice S400x128 ![0, 0] v5 slices_S400x256_o0_0_S400x128 (ix2 p c) = _
  rw [e1, e2]
  rfl

/-! ## The three stored values -/

/-- The first body stores the product of its operands. -/
theorem pay0_apply (v0 : Vec Ideal S10000x128 .f32) (v1 : Vec Ideal S128x256 .f32) (r : Fin 10000) (c : Fin 256) :
    k0_pay1 (F := Ideal) v0 v1 (ix2 r c) = mm v0 v1 r c := by
  unfold k0_pay1
  rw [shapeCast_self]
  exact matmulA_apply v0 v1 r c

/-- The third body stores the gate of its block of adjacency rows against the projection. -/
theorem pay2_apply (v0 : Vec Ideal S400x10000 .f32) (v2 : Vec Ideal S10000x256 .f32) (p : Fin 400) (c : Fin 128) :
    k2_pay1 (F := Ideal) v0 v2 (ix2 p c) = fused v0 v2 p c := by
  unfold k2_pay1
  rw [shapeCast_self, gate_apply]
  unfold fused
  rw [matmulB_apply, matmulB_apply]
  rfl

/-- The second body stores, at (p, q), the product of the block's gated activations — the larger of each gate and
    zero — with the next layer's side-by-side weights. -/
theorem pay1_apply (v0 : Vec Ideal S400x10000 .f32) (v2 : Vec Ideal S10000x256 .f32) (v12 : Vec Ideal S128x256 .f32)
    (p : Fin 400) (q : Fin 256) :
    k1_pay1 (F := Ideal) v0 v2 v12 (ix2 p q) = mm (ofEntries (relu (fused v0 v2))) v12 p q := by
  unfold k1_pay1
  rw [shapeCast_self, shapeCast_self, matmulC_apply]
  refine mm_congr_row _ _ v12 p p q fun k => ?_
  rw [ofEntries_ix2]
  show max (mulf (F := Ideal) _ _ (ix2 p k)) (Ideal.ofBits .f32 0x00000000#32) = _
  rw [gate_apply, Ideal.ofBits_zero_f32]
  unfold relu fused
  rw [matmulB_apply, matmulB_apply]
  rfl

end Cert.KernelIdeal.Payload

end
-- ==== Proof.Region0.lean ====
/-
  The first launch: its result array as one function of the arrays the launch finds.

  The launch has a single point, which stages the whole feature matrix and the whole side-by-side weight matrix and
  writes back the whole 256-column projection: the result array is the product of the two.
-/
import proofs.«106500_g21887153340606_cont_8to1_464_4_alg».proof.Proof.Gen.KernelIdeal.Frame
import proofs.«106500_g21887153340606_cont_8to1_464_4_alg».proof.Proof.Payload

set_option maxRecDepth 16384

noncomputable section

namespace Cert.KernelIdeal.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Payload GatedConv

variable (V : (c : Dev nD) → (b : Ref sig .tc) → Buf (Elt Ideal) ((c : Thread nD τ).loc b))

theorem zero2 : (![0, 0] : Fin 2 → Nat) = fun _ => 0 := funext fun a => by fin_cases a <;> rfl

/-- Every window stays at its whole array. -/
theorem index_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The point's feature block is the whole feature matrix. -/
theorem feat_block (c : Dev nD) (t : Fin cfg0.N) : iblk0 V c 0 t = V c main_arg0 := by
  obtain ⟨e0, e1, -⟩ := index_facts t
  funext j
  show V c main_arg0 (((cfg0.win 0).blk t).view.emb j) = V c main_arg0 j
  refine congrArg (V c main_arg0) (funext fun a => Fin.ext ?_)
  match a with
  | ⟨0, _⟩ => show win0_0.index t (0 : Fin 2) * 10000 + 1 * (j 0).val = (j 0).val; omega
  | ⟨1, _⟩ => show win0_0.index t (1 : Fin 2) * 128 + 1 * (j 1).val = (j 1).val; omega

/-- The point's weight block is the whole side-by-side weight matrix. -/
theorem weight_block (c : Dev nD) (t : Fin cfg0.N) : iblk0 V c 1 t = V c main_v0 := by
  obtain ⟨-, -, e2, e3, -⟩ := index_facts t
  funext j
  show V c main_v0 (((cfg0.win 1).blk t).view.emb j) = V c main_v0 j
  refine congrArg (V c main_v0) (funext fun a => Fin.ext ?_)
  match a with
  | ⟨0, _⟩ => show win0_1.index t (0 : Fin 2) * 128 + 1 * (j 0).val = (j 0).val; omega
  | ⟨1, _⟩ => show win0_1.index t (1 : Fin 2) * 256 + 1 * (j 1).val = (j 1).val; omega

/-- The projection as a function of the features and the side-by-side weights: their product. -/
def G (x : Mat 10000 128) (WG : Mat 128 256) : Mat 10000 256 := ofEntries (mm x WG)

/-- What the point writes back is the whole of that function of the arrays the launch finds. -/
theorem flushed_eq (c : Dev nD) (t : Fin cfg0.N) :
    (dat0 V c).flushed 2 t = ((cfg0.win 2).blk t).view.read (Elt Ideal) (G (V c main_arg0) (V c main_v0)) := by
  show (cfg0.win 2).cut (grid0.coords t) ((dat0 V c).after 2 t) = _
  rw [after0_2]
  unfold out0_2
  rw [View.canon_unit_zero zero2]
  simp only [View.ld_unit_zero (S := S10000x128) zero2, View.ld_unit_zero (S := S128x256) zero2]
  rw [feat_block, weight_block]
  funext j
  obtain ⟨r, q, rfl⟩ : ∃ (r : Fin 10000) (q : Fin 256), j = ix2 r q := ⟨j 0, j 1, eq_ix2 j⟩
  obtain ⟨-, -, -, -, e4, e5⟩ := index_facts t
  have hemb : ((cfg0.win 2).blk t).view.emb (ix2 r q) = ix2 r q :=
    funext fun a => Fin.ext (by
      match a with
      | ⟨0, _⟩ => show win0_2.index t (0 : Fin 2) * 10000 + 1 * r.val = r.val; omega
      | ⟨1, _⟩ => show win0_2.index t (1 : Fin 2) * 256 + 1 * q.val = q.val; omega)
  show k0_pay1 (F := Ideal) (V c main_arg0) (V c main_v0) (ix2 r q)
    = G (V c main_arg0) (V c main_v0) (((cfg0.win 2).blk t).view.emb (ix2 r q))
  rw [hemb, pay0_apply]
  rfl

/-- An index of the result is in the point's block exactly when each coordinate is in the block's range. -/
theorem mem_block (t : Fin cfg0.N) (i : S10000x256.Idx) :
    i ∈ ((cfg0.win 2).blk t).view.set ↔ ∀ a : Fin 2, win0_2.index t a * S10000x256.size a ≤ (i a).val ∧ (i a).val < win0_2.index t a * S10000x256.size a + S10000x256.size a := by
  show i ∈ ((View.whole main_v2).slice (win0_2.rect t)).set ↔ _
  rw [View.set_slice_whole, Rect.mem_set_unit]
  exact Iff.rfl

/-- The one block covers the result. -/
theorem cover (i : S10000x256.Idx) : ∃ t : Fin cfg0.N, (cfg0.win 2).flush t = true ∧ i ∈ ((cfg0.win 2).blk t).view.set := by
  have hi0 : (i 0).val < 10000 := (i 0).isLt
  have hi1 : (i 1).val < 256 := (i 1).isLt
  have t : Fin cfg0.N := t0_0
  obtain ⟨-, -, -, -, e4, e5⟩ := index_facts t
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 256 ≤ (i 1).val ∧ (i 1).val < win0_2.index t (1 : Fin 2) * 256 + 256; omega

/-- After the launch the result array is the product of the features and the side-by-side weights the launch finds. -/
theorem result_eq (c : Dev nD) : (dat0 V c).arrAt 2 cfg0.N = G (V c main_arg0) (V c main_v0) :=
  (dat0 V c).arrAt_eq_of_cover 2 (G (V c main_arg0) (V c main_v0)) (fun t _ => flushed_eq V c t) cover

end Cert.KernelIdeal.Region0

end
-- ==== Proof.Region1.lean ====
/-
  The second launch: its result array as one function of the arrays the launch finds.

  The launch has 25 grid points.  Point t stages rows 400 t to 400 t + 399 of the adjacency, the whole 256-column
  projection of the input features, the whole side-by-side weight matrix of the next layer, and writes back rows
  400 t to 400 t + 399 of the next layer's 256-column projection.  Entry (p, q) of the block a point writes is the
  product of row p of the block's gated activations (the larger of each gate and zero) with column q of the weights;
  row p of the activations depends only on row p of the adjacency block, which is row 400 t + p of the adjacency.
  So each block is the matching block of one whole-array function, and the 25 blocks cover all 10000 rows.
-/
import proofs.«106500_g21887153340606_cont_8to1_464_4_alg».proof.Proof.Gen.KernelIdeal.Frame
import proofs.«106500_g21887153340606_cont_8to1_464_4_alg».proof.Proof.Payload

set_option maxRecDepth 16384

noncomputable section

namespace Cert.KernelIdeal.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Payload GatedConv

variable (V : (c : Dev nD) → (b : Ref sig .tc) → Buf (Elt Ideal) ((c : Thread nD τ).loc b))

theorem zero2 : (![0, 0] : Fin 2 → Nat) = fun _ => 0 := funext fun a => by fin_cases a <;> rfl

/-- The block indices over the grid: the adjacency and result windows move one block of rows per point, the
    projection's and the weights' windows stay at their whole arrays. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every block of rows is some point's. -/
theorem index_onto : ∀ q : Fin 25, ∃ t : Fin cfg1.N, win1_3.index t = ![q.val, 0] :=
  (by decide +kernel : ∀ q : Fin 25, ∃ t : Fin grid1.N, win1_3.index t = ![q.val, 0])

/-- Row p of point t's adjacency block is row 400 t + p of the adjacency. -/
theorem adj_block (c : Dev nD) (t : Fin cfg1.N) (p : Fin 400) (r : Fin 10000) (hr : r.val = 400 * t.val + p.val) (k : Fin 10000) :
    iblk1 V c 0 t (ix2 p k) = V c main_arg1 (ix2 r k) := by
  obtain ⟨e0, e1, -⟩ := index_facts t
  show V c main_arg1 (((cfg1.win 0).blk t).view.emb (ix2 p k)) = V c main_arg1 (ix2 r k)
  refine congrArg (V c main_arg1) (funext fun a => Fin.ext ?_)
  match a with
  | ⟨0, _⟩ => show win1_0.index t (0 : Fin 2) * 400 + 1 * p.val = r.val; omega
  | ⟨1, _⟩ => show win1_0.index t (1 : Fin 2) * 10000 + 1 * k.val = k.val; omega

/-- Every point's projection block is the whole projection. -/
theorem proj_block (c : Dev nD) (t : Fin cfg1.N) : iblk1 V c 1 t = V c main_v2 := by
  obtain ⟨-, -, e2, e3, -⟩ := index_facts t
  funext j
  show V c main_v2 (((cfg1.win 1).blk t).view.emb j) = V c main_v2 j
  refine congrArg (V c main_v2) (funext fun a => Fin.ext ?_)
  match a with
  | ⟨0, _⟩ => show win1_1.index t (0 : Fin 2) * 10000 + 1 * (j 0).val = (j 0).val; omega
  | ⟨1, _⟩ => show win1_1.index t (1 : Fin 2) * 256 + 1 * (j 1).val = (j 1).val; omega

/-- Every point's weight block is the whole side-by-side weight matrix. -/
theorem weight_block (c : Dev nD) (t : Fin cfg1.N) : iblk1 V c 2 t = V c main_v1 := by
  obtain ⟨-, -, -, -, e4, e5, -⟩ := index_facts t
  funext j
  show V c main_v1 (((cfg1.win 2).blk t).view.emb j) = V c main_v1 j
  refine congrArg (V c main_v1) (funext fun a => Fin.ext ?_)
  match a with
  | ⟨0, _⟩ => show win1_2.index t (0 : Fin 2) * 128 + 1 * (j 0).val = (j 0).val; omega
  | ⟨1, _⟩ => show win1_2.index t (1 : Fin 2) * 256 + 1 * (j 1).val = (j 1).val; omega

/-- The next layer's projection as a function of the adjacency, this layer's projection and the next layer's
    side-by-side weights: the gated activations, the larger of each and zero, times the weights. -/
def G (adj : Mat 10000 10000) (S : Mat 10000 256) (WG : Mat 128 256) : Mat 10000 256 :=
  ofEntries (mm (ofEntries (relu (fused adj S))) WG)

/-- What point t writes back is block t of that function of the arrays the launch finds. -/
theorem flushed_eq (c : Dev nD) (t : Fin cfg1.N) :
    (dat1 V c).flushed 3 t = ((cfg1.win 3).blk t).view.read (Elt Ideal) (G (V c main_arg1) (V c main_v2) (V c main_v1)) := by
  show (cfg1.win 3).cut (grid1.coords t) ((dat1 V c).after 3 t) = _
  rw [after1_3]
  unfold out1_3
  rw [View.canon_unit_zero zero2]
  simp only [View.ld_unit_zero (S := S400x10000) zero2, View.ld_unit_zero (S := S10000x256) zero2, View.ld_unit_zero (S := S128x256) zero2]
  rw [proj_block, weight_block]
  funext j
  obtain ⟨p, q, rfl⟩ : ∃ (p : Fin 400) (q : Fin 256), j = ix2 p q := ⟨j 0, j 1, eq_ix2 j⟩
  have hN : cfg1.N = 25 := N_1
  have ht : t.val < 25 := hN ▸ t.isLt
  obtain ⟨-, -, -, -, -, -, e6, e7⟩ := index_facts t
  have hemb : ((cfg1.win 3).blk t).view.emb (ix2 p q) = ix2 (⟨400 * t.val + p.val, by have := p.isLt; omega⟩ : Fin 10000) q :=
    funext fun a => Fin.ext (by
      match a with
      | ⟨0, _⟩ => show win1_3.index t (0 : Fin 2) * 400 + 1 * p.val = 400 * t.val + p.val; omega
      | ⟨1, _⟩ => show win1_3.index t (1 : Fin 2) * 256 + 1 * q.val = q.val; omega)
  show k1_pay1 (F := Ideal) (iblk1 V c 0 t) (V c main_v2) (V c main_v1) (ix2 p q)
    = G (V c main_arg1) (V c main_v2) (V c main_v1) (((cfg1.win 3).blk t).view.emb (ix2 p q))
  rw [hemb, pay1_apply]
  unfold G
  rw [ofEntries_ix2]
  refine mm_congr_row _ _ _ p _ q fun k => ?_
  rw [ofEntries_ix2, ofEntries_ix2]
  unfold relu
  exact congrArg (max · 0) (fused_congr_row _ _ _ p _ k fun k' => adj_block V c t p _ rfl k')

/-- An index of the result is in point t's block exactly when each coordinate is in the block's range. -/
theorem mem_block (t : Fin cfg1.N) (i : S10000x256.Idx) :
    i ∈ ((cfg1.win 3).blk t).view.set ↔ ∀ a : Fin 2, win1_3.index t a * S400x256.size a ≤ (i a).val ∧ (i a).val < win1_3.index t a * S400x256.size a + S400x256.size a := by
  show i ∈ ((View.whole main_v3).slice (win1_3.rect t)).set ↔ _
  rw [View.set_slice_whole, Rect.mem_set_unit]
  exact Iff.rfl

/-- The 25 blocks of 400 rows cover the result: row r is in block r / 400. -/
theorem cover (i : S10000x256.Idx) : ∃ t : Fin cfg1.N, (cfg1.win 3).flush t = true ∧ i ∈ ((cfg1.win 3).blk t).view.set := by
  have hi0 : (i 0).val < 10000 := (i 0).isLt
  have hi1 : (i 1).val < 256 := (i 1).isLt
  obtain ⟨t, ht⟩ := index_onto ⟨(i 0).val / 400, by omega⟩
  have q0 : win1_3.index t (0 : Fin 2) = (i 0).val / 400 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 256 ≤ (i 1).val ∧ (i 1).val < win1_3.index t (1 : Fin 2) * 256 + 256; omega

/-- After the launch the result array is that function of the arrays the launch finds. -/
theorem result_eq (c : Dev nD) : (dat1 V c).arrAt 3 cfg1.N = G (V c main_arg1) (V c main_v2) (V c main_v1) :=
  (dat1 V c).arrAt_eq_of_cover 3 (G (V c main_arg1) (V c main_v2) (V c main_v1)) (fun t _ => flushed_eq V c t) cover

end Cert.KernelIdeal.Region1

end
-- ==== Proof.Region2.lean ====
/-
  The third launch: the result array as one function of the arrays the launch finds.

  The launch has 25 grid points.  Point t stages rows 400 t to 400 t + 399 of the adjacency, the whole 256-column
  projection, and writes back rows 400 t to 400 t + 399 of the result.  Entry (p, c) of the block a point writes is
  the gate of row p of its adjacency block against the projection, and that row is row 400 t + p of the adjacency;
  so the block is the matching block of one whole-array function, the gate of each adjacency row against the
  projection.  The 25 blocks cover all 10000 rows, so the result array is that function.
-/
import proofs.«106500_g21887153340606_cont_8to1_464_4_alg».proof.Proof.Gen.KernelIdeal.Frame
import proofs.«106500_g21887153340606_cont_8to1_464_4_alg».proof.Proof.Payload

set_option maxRecDepth 16384

noncomputable section

namespace Cert.KernelIdeal.Region2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Payload GatedConv

variable (V : (c : Dev nD) → (b : Ref sig .tc) → Buf (Elt Ideal) ((c : Thread nD τ).loc b))

theorem zero2 : (![0, 0] : Fin 2 → Nat) = fun _ => 0 := funext fun a => by fin_cases a <;> rfl

/-- The block indices over the grid: the adjacency and result windows move one block of rows per point, the
    projection's window stays at the whole array. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block of rows is some point's. -/
theorem index_onto : ∀ q : Fin 25, ∃ t : Fin cfg2.N, win2_2.index t = ![q.val, 0] :=
  (by decide +kernel : ∀ q : Fin 25, ∃ t : Fin grid2.N, win2_2.index t = ![q.val, 0])

/-- Row p of point t's adjacency block is row 400 t + p of the adjacency. -/
theorem adj_block (c : Dev nD) (t : Fin cfg2.N) (p : Fin 400) (r : Fin 10000) (hr : r.val = 400 * t.val + p.val) (k : Fin 10000) :
    iblk2 V c 0 t (ix2 p k) = V c main_arg1 (ix2 r k) := by
  obtain ⟨e0, e1, -⟩ := index_facts t
  show V c main_arg1 (((cfg2.win 0).blk t).view.emb (ix2 p k)) = V c main_arg1 (ix2 r k)
  refine congrArg (V c main_arg1) (funext fun a => Fin.ext ?_)
  match a with
  | ⟨0, _⟩ => show win2_0.index t (0 : Fin 2) * 400 + 1 * p.val = r.val; omega
  | ⟨1, _⟩ => show win2_0.index t (1 : Fin 2) * 10000 + 1 * k.val = k.val; omega

/-- Every point's projection block is the whole projection. -/
theorem proj_block (c : Dev nD) (t : Fin cfg2.N) : iblk2 V c 1 t = V c main_v3 := by
  obtain ⟨-, -, e2, e3, -⟩ := index_facts t
  funext j
  show V c main_v3 (((cfg2.win 1).blk t).view.emb j) = V c main_v3 j
  refine congrArg (V c main_v3) (funext fun a => Fin.ext ?_)
  match a with
  | ⟨0, _⟩ => show win2_1.index t (0 : Fin 2) * 10000 + 1 * (j 0).val = (j 0).val; omega
  | ⟨1, _⟩ => show win2_1.index t (1 : Fin 2) * 256 + 1 * (j 1).val = (j 1).val; omega

/-- The result array as a function of the adjacency and the projection: the gate of each adjacency row. -/
def G (adj : Mat 10000 10000) (S : Mat 10000 256) : Mat 10000 128 := ofEntries (fused adj S)

/-- What point t writes back is block t of that function of the arrays the launch finds. -/
theorem flushed_eq (c : Dev nD) (t : Fin cfg2.N) :
    (dat2 V c).flushed 2 t = ((cfg2.win 2).blk t).view.read (Elt Ideal) (G (V c main_arg1) (V c main_v3)) := by
  show (cfg2.win 2).cut (grid2.coords t) ((dat2 V c).after 2 t) = _
  rw [after2_2]
  unfold out2_2
  rw [View.canon_unit_zero zero2]
  simp only [View.ld_unit_zero (S := S400x10000) zero2, View.ld_unit_zero (S := S10000x256) zero2]
  rw [proj_block]
  funext j
  obtain ⟨p, q, rfl⟩ : ∃ (p : Fin 400) (q : Fin 128), j = ix2 p q := ⟨j 0, j 1, eq_ix2 j⟩
  have hN : cfg2.N = 25 := N_2
  have ht : t.val < 25 := hN ▸ t.isLt
  obtain ⟨-, -, -, -, e4, e5⟩ := index_facts t
  have hemb : ((cfg2.win 2).blk t).view.emb (ix2 p q) = ix2 (⟨400 * t.val + p.val, by have := p.isLt; omega⟩ : Fin 10000) q :=
    funext fun a => Fin.ext (by
      match a with
      | ⟨0, _⟩ => show win2_2.index t (0 : Fin 2) * 400 + 1 * p.val = 400 * t.val + p.val; omega
      | ⟨1, _⟩ => show win2_2.index t (1 : Fin 2) * 128 + 1 * q.val = q.val; omega)
  show k2_pay1 (F := Ideal) (iblk2 V c 0 t) (V c main_v3) (ix2 p q) = G (V c main_arg1) (V c main_v3) (((cfg2.win 2).blk t).view.emb (ix2 p q))
  rw [hemb, pay2_apply]
  unfold G
  rw [ofEntries_ix2]
  exact fused_congr_row _ _ _ p _ q fun k => adj_block V c t p _ rfl k

/-- An index of the result is in point t's block exactly when each coordinate is in the block's range. -/
theorem mem_block (t : Fin cfg2.N) (i : S10000x128.Idx) :
    i ∈ ((cfg2.win 2).blk t).view.set ↔ ∀ a : Fin 2, win2_2.index t a * S400x128.size a ≤ (i a).val ∧ (i a).val < win2_2.index t a * S400x128.size a + S400x128.size a := by
  show i ∈ ((View.whole main_v4).slice (win2_2.rect t)).set ↔ _
  rw [View.set_slice_whole, Rect.mem_set_unit]
  exact Iff.rfl

/-- The 25 blocks of 400 rows cover the result: row r is in block r / 400. -/
theorem cover (i : S10000x128.Idx) : ∃ t : Fin cfg2.N, (cfg2.win 2).flush t = true ∧ i ∈ ((cfg2.win 2).blk t).view.set := by
  have hi0 : (i 0).val < 10000 := (i 0).isLt
  have hi1 : (i 1).val < 128 := (i 1).isLt
  obtain ⟨t, ht⟩ := index_onto ⟨(i 0).val / 400, by omega⟩
  have q0 : win2_2.index t (0 : Fin 2) = (i 0).val / 400 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 400 ≤ (i 0).val ∧ (i 0).val < win2_2.index t (0 : Fin 2) * 400 + 400; omega
  | ⟨1, _⟩ => show win2_2.index t (1 : Fin 2) * 128 ≤ (i 1).val ∧ (i 1).val < win2_2.index t (1 : Fin 2) * 128 + 128; omega

/-- After the launch the result array is the gate of each adjacency row against the projection, of the arrays the
    launch finds. -/
theorem result_eq (c : Dev nD) : (dat2 V c).arrAt 2 cfg2.N = G (V c main_arg1) (V c main_v3) :=
  (dat2 V c).arrAt_eq_of_cover 2 (G (V c main_arg1) (V c main_v3)) (fun t _ => flushed_eq V c t) cover

end Cert.KernelIdeal.Region2

end
-- ==== Proof.LibConcatCols.lean ====
/-
  Two matrices with the same number of rows laid side by side, read at an index.

  The concatenation along the column axis of an a-by-b matrix and an a-by-c matrix reads, at row p and column k,
  the first matrix at (p, k) when k < b, and the second matrix at (p, k - b) otherwise.
-/
import Idealize.ShloMosaic.Lib.ValueIdx
import Idealize.ShloMosaic.Lib.Pipeline.Value

namespace LibConcatCols

open Idealize.ShloMosaic Idealize.ShloMosaic.ValueIdx

variable {α : Type}

/-- A column in the first piece's range reads the first piece. -/
theorem concat_cols_left {a b c n : ℕ} (x₁ : (⟨2, ![a, b]⟩ : Shape).Idx → α) (x₂ : (⟨2, ![a, c]⟩ : Shape).Idx → α)
    (h : Shape.Concatenates [⟨2, ![a, b]⟩, ⟨2, ![a, c]⟩] ⟨2, ![a, n]⟩ 1) (p : Fin a) (k : Fin n) (k' : Fin b)
    (hk : k'.val = k.val) :
    concatenate ⟨2, ![a, n]⟩ 1 [⟨⟨2, ![a, b]⟩, x₁⟩, ⟨⟨2, ![a, c]⟩, x₂⟩] h (ix2 p k) = x₁ (ix2 p k') :=
  concatenate_pair_apply_left 1 x₁ x₂ h (ix2 p k) rfl (ix2 p k') (fun d => by
    match d with
    | ⟨0, _⟩ => rfl
    | ⟨1, _⟩ => exact hk)

/-- A column past the first piece's range reads the second piece, the first piece's width less. -/
theorem concat_cols_right {a b c n : ℕ} (x₁ : (⟨2, ![a, b]⟩ : Shape).Idx → α) (x₂ : (⟨2, ![a, c]⟩ : Shape).Idx → α)
    (h : Shape.Concatenates [⟨2, ![a, b]⟩, ⟨2, ![a, c]⟩] ⟨2, ![a, n]⟩ 1) (p : Fin a) (k : Fin n) (k' : Fin c)
    (hk : k'.val + b = k.val) :
    concatenate ⟨2, ![a, n]⟩ 1 [⟨⟨2, ![a, b]⟩, x₁⟩, ⟨⟨2, ![a, c]⟩, x₂⟩] h (ix2 p k) = x₂ (ix2 p k') :=
  concatenate_pair_apply_right 1 x₁ x₂ h (ix2 p k) rfl rfl (ix2 p k') (fun d hd => by
    match d, hd with
    | ⟨0, _⟩, _ => rfl
    | ⟨1, _⟩, hd => exact absurd rfl hd) hk

end LibConcatCols
-- ==== Proof.KernelValue.lean ====
/-
  The kernel's result array is the network's result of the specification.

  The buffers' contents at each boundary of the program, read one buffer at a time: after the two host
  concatenations the two side-by-side weight matrices [W0 | G0] and [W1 | G1] (the arguments untouched); after the
  first launch the projection of the features onto [W0 | G0]; after the second the next layer's projection, a function
  of the adjacency, the first projection and [W1 | G1]; after the third the result, a function of the adjacency and
  the second projection.  A launch leaves every buffer that is not one of its arrays, and every input array, as it
  found it.  Composed, the result is the fused arrangement of the network, which is the network's result.
-/
import proofs.«106500_g21887153340606_cont_8to1_464_4_alg».proof.Proof.KernelRun
import proofs.«106500_g21887153340606_cont_8to1_464_4_alg».proof.Proof.Region0
import proofs.«106500_g21887153340606_cont_8to1_464_4_alg».proof.Proof.Region1
import proofs.«106500_g21887153340606_cont_8to1_464_4_alg».proof.Proof.Region2
import proofs.«106500_g21887153340606_cont_8to1_464_4_alg».proof.Proof.LibConcatCols
import Idealize.ShloMosaic.Lib.StableHlo.Run

set_option maxRecDepth 16384

noncomputable section

namespace Cert.KernelIdeal.KernelValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Payload GatedConv
open Idealize.ShloMosaic.StableHlo

/-- Two 128-by-128 matrices side by side. -/
def sideBySide (W G : Mat 128 128) : Mat 128 256 :=
  concatenate S128x256 1 [⟨S128x128, W⟩, ⟨S128x128, G⟩] concatenates_S128x128_S128x128_S128x256_d1

/-- Column c of the concatenation is W's column c; column 128 + c is G's column c. -/
theorem sideBySide_spec (W G : Mat 128 128) : SideBySide (sideBySide W G) W G where
  left l c := LibConcatCols.concat_cols_left W G concatenates_S128x128_S128x128_S128x256_d1 l (lo c) c rfl
  right l c := LibConcatCols.concat_cols_right W G concatenates_S128x128_S128x128_S128x256_d1 l (hi c) c (Nat.add_comm _ _)

variable (m : (ℓ : Loc nD τ sig) → Buf (Elt Ideal) ℓ) (ρ : Dev nD → PrngReg)

/-! ## After the host concatenations -/

theorem V1_x (c : Dev nD) : V1 m ρ c main_arg0 = m ((c : Thread nD τ).loc main_arg0) := by
  dsimp only [V1, W1, W0, hostOps0]; after_results <;> rfl
theorem V1_adj (c : Dev nD) : V1 m ρ c main_arg1 = m ((c : Thread nD τ).loc main_arg1) := by
  dsimp only [V1, W1, W0, hostOps0]; after_results <;> rfl
theorem V1_wg0 (c : Dev nD) : (V1 m ρ c main_v0 : S128x256.Idx → EReal) = sideBySide (m ((c : Thread nD τ).loc main_arg2)) (m ((c : Thread nD τ).loc main_arg3)) := by
  dsimp only [V1, W1, W0, hostOps0]; after_results <;> rfl
theorem V1_wg1 (c : Dev nD) : (V1 m ρ c main_v1 : S128x256.Idx → EReal) = sideBySide (m ((c : Thread nD τ).loc main_arg4)) (m ((c : Thread nD τ).loc main_arg5)) := by
  dsimp only [V1, W1, W0, hostOps0]; after_results <;> rfl

/-! ## After the first launch -/

theorem V2_adj (c : Dev nD) : V2 m ρ c main_arg1 = m ((c : Thread nD τ).loc main_arg1) :=
  (W2_of_ne m ρ c main_arg1 (by decide)).trans (V1_adj m ρ c)
theorem V2_wg1 (c : Dev nD) : (V2 m ρ c main_v1 : S128x256.Idx → EReal) = sideBySide (m ((c : Thread nD τ).loc main_arg4)) (m ((c : Thread nD τ).loc main_arg5)) :=
  (W2_of_ne m ρ c main_v1 (by decide)).trans (V1_wg1 m ρ c)
theorem V2_proj (c : Dev nD) : (V2 m ρ c main_v2 : S10000x256.Idx → EReal)
    = Region0.G (m ((c : Thread nD τ).loc main_arg0)) (sideBySide (m ((c : Thread nD τ).loc main_arg2)) (m ((c : Thread nD τ).loc main_arg3))) := by
  refine (W2_arr m ρ c 2).trans ((Region0.result_eq (V1 m ρ) c).trans ?_)
  rw [V1_x, V1_wg0]

/-! ## After the second launch -/

theorem V3_adj (c : Dev nD) : V3 m ρ c main_arg1 = m ((c : Thread nD τ).loc main_arg1) :=
  ((W3_arr m ρ c 0).trans (((dat1 (V2 m ρ) c).arrAt_in 0 rfl _).trans (A_eq1 (V2 m ρ) c 0))).trans (V2_adj m ρ c)
theorem V3_proj (c : Dev nD) : (V3 m ρ c main_v3 : S10000x256.Idx → EReal)
    = Region1.G (m ((c : Thread nD τ).loc main_arg1)) (Region0.G (m ((c : Thread nD τ).loc main_arg0)) (sideBySide (m ((c : Thread nD τ).loc main_arg2)) (m ((c : Thread nD τ).loc main_arg3))))
        (sideBySide (m ((c : Thread nD τ).loc main_arg4)) (m ((c : Thread nD τ).loc main_arg5))) := by
  refine (W3_arr m ρ c 3).trans ((Region1.result_eq (V2 m ρ) c).trans ?_)
  rw [V2_adj, V2_proj, V2_wg1]

/-! ## After the third launch -/

/-- The result buffer's last contents are the network's result of the arguments as launched. -/
theorem result_eq (c : Dev nD) : (W4 m ρ c (Proc.devRef .tc main_v4) : S10000x128.Idx → EReal)
    = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 2).trans ((Region2.result_eq (V3 m ρ) c).trans ?_)
  rw [V3_adj, V3_proj]
  exact fused_network_eq_logits _ _ _ _ _ _ _ _ (sideBySide_spec _ _) (sideBySide_spec _ _)

/-- Every weakly fair execution of the idealized kernel terminates, nothing faulting, with the result buffer at the
    network's result of the arguments and the arguments as launched. -/
theorem run : θ_run defs (onTc (τ := τ) (main (F := Ideal))) ⟨m, fun _ => 0, ρ⟩ (fun r => ∀ c : Dev nD,
      r.2.mem ((c.tc : Thread nD τ).loc main_v4)
        = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (RunValue.run_result m ρ)

end Cert.KernelIdeal.KernelValue

end
-- ==== Proof.RefLogits.lean ====
/-
  The reference computes the two-layer gated convolution of the specification.

  Its operations, one at a time: four row-by-column products per layer (the features with each weight matrix, the
  adjacency with each of those), the logistic function spelled as 1 / (1 + exp (−v)) on the gate product, the product
  of the two, and, after the first layer, the larger of each entry and zero.  Each product read at an entry is the
  plain sum of the specification; the spelled quotient is the logistic function on every extended real, the
  infinities included, by the definition of the quotient and of the exponential there; the literal 1.0 denotes the
  real number one.
-/
import proofs.«106500_g21887153340606_cont_8to1_464_4_alg».proof.Proof.Gen.ReferenceIdeal.Read
import proofs.«106500_g21887153340606_cont_8to1_464_4_alg».proof.Proof.Spec

noncomputable section

namespace Cert.ReferenceIdeal.RefValue

open Cert.ReferenceIdeal Cert.ReferenceIdeal.Read Idealize.ShloMosaic Idealize.ShloMosaic.ValueIdx GatedConv

/-- The literal 1.0 denotes the real number one. -/
theorem one_f32 : Ideal.ofBits .f32 0x3F800000#32 = 1 := by
  simp [Ideal.ofBits, Ideal.ieee, -EReal.coe_mul]; norm_num

variable (x : (⟨S10000x128, .f32⟩ : BufTy).Contents (Elt Ideal)) (adj : (⟨S10000x10000, .f32⟩ : BufTy).Contents (Elt Ideal)) (W0 G0 W1 G1 : (⟨S128x128, .f32⟩ : BufTy).Contents (Elt Ideal))

/-! ## The first layer -/

theorem v0_entries (r : Fin 10000) (c : Fin 128) :
    val_main_v0 (F := Ideal) x W0 (ix2 r c) = mm (M := 10000) (K := 128) (N := 128) x W0 r c := by
  rw [val_main_v0_apply]
  exact Finset.sum_congr rfl fun k _ => by
    rw [show lidx_main_v0 (ix2 r c) k = ix2 r k from funext fun a => by match a with | ⟨0, _⟩ => rfl | ⟨1, _⟩ => rfl,
      show ridx_main_v0 (ix2 r c) k = ix2 k c from funext fun a => by match a with | ⟨0, _⟩ => rfl | ⟨1, _⟩ => rfl]

theorem v1_entries (r : Fin 10000) (c : Fin 128) :
    val_main_v1 (F := Ideal) x G0 (ix2 r c) = mm (M := 10000) (K := 128) (N := 128) x G0 r c := by
  rw [val_main_v1_apply]
  exact Finset.sum_congr rfl fun k _ => by
    rw [show lidx_main_v1 (ix2 r c) k = ix2 r k from funext fun a => by match a with | ⟨0, _⟩ => rfl | ⟨1, _⟩ => rfl,
      show ridx_main_v1 (ix2 r c) k = ix2 k c from funext fun a => by match a with | ⟨0, _⟩ => rfl | ⟨1, _⟩ => rfl]

theorem v2_entries (r : Fin 10000) (c : Fin 128) :
    val_main_v2 (F := Ideal) x adj W0 (ix2 r c) = mm (M := 10000) (K := 10000) (N := 128) adj (val_main_v0 (F := Ideal) x W0) r c := by
  rw [val_main_v2_apply]
  exact Finset.sum_congr rfl fun k _ => by
    rw [show lidx_main_v2 (ix2 r c) k = ix2 r k from funext fun a => by match a with | ⟨0, _⟩ => rfl | ⟨1, _⟩ => rfl,
      show ridx_main_v2 (ix2 r c) k = ix2 k c from funext fun a => by match a with | ⟨0, _⟩ => rfl | ⟨1, _⟩ => rfl]

theorem v3_entries (r : Fin 10000) (c : Fin 128) :
    val_main_v3 (F := Ideal) x adj G0 (ix2 r c) = mm (M := 10000) (K := 10000) (N := 128) adj (val_main_v1 (F := Ideal) x G0) r c := by
  rw [val_main_v3_apply]
  exact Finset.sum_congr rfl fun k _ => by
    rw [show lidx_main_v3 (ix2 r c) k = ix2 r k from funext fun a => by match a with | ⟨0, _⟩ => rfl | ⟨1, _⟩ => rfl,
      show ridx_main_v3 (ix2 r c) k = ix2 k c from funext fun a => by match a with | ⟨0, _⟩ => rfl | ⟨1, _⟩ => rfl]

theorem v0_eq : val_main_v0 (F := Ideal) x W0 = ofEntries (mm x W0) := mat_ext fun r c => (v0_entries x W0 r c).trans (ofEntries_ix2 _ r c).symm
theorem v1_eq : val_main_v1 (F := Ideal) x G0 = ofEntries (mm x G0) := mat_ext fun r c => (v1_entries x G0 r c).trans (ofEntries_ix2 _ r c).symm

theorem v9_apply' (i : S10000x128.Idx) :
    val_main_v9 (F := Ideal) x adj G0 i = Ideal.logistic (val_main_v3 (F := Ideal) x adj G0 i) := by
  rw [val_main_v9_apply, val_main_v8_apply, val_main_cst_0_apply, val_main_v7_apply, val_main_v6_apply,
    val_main_cst_apply, val_main_v5_apply, val_main_v4_apply]
  show Ideal.div (Ideal.ofBits .f32 0x3F800000#32) (Ideal.ofBits .f32 0x3F800000#32 + Ideal.exp (-(val_main_v3 (F := Ideal) x adj G0 i))) = _
  rw [one_f32]
  rfl

/-- The first layer's gated product, at an entry. -/
theorem v10_entries (r : Fin 10000) (c : Fin 128) :
    val_main_v10 (F := Ideal) x adj W0 G0 (ix2 r c) = conv adj x W0 G0 r c := by
  rw [val_main_v10_apply, v9_apply', v3_entries, v2_entries, v0_eq, v1_eq]
  rfl

/-- The first layer's activations: the larger of each gated product and zero. -/
theorem v11_eq : val_main_v11 (F := Ideal) x adj W0 G0 = ofEntries (relu (conv adj x W0 G0)) :=
  mat_ext fun r c => by
    rw [val_main_v11_apply, val_main_call0_v0_apply, val_main_call0_cst_apply, v10_entries, ofEntries_ix2]
    show max (conv adj x W0 G0 r c) (Ideal.ofBits .f32 0x00000000#32) = _
    rw [Ideal.ofBits_zero_f32]
    rfl

/-! ## The second layer -/

theorem v12_entries (r : Fin 10000) (c : Fin 128) :
    val_main_v12 (F := Ideal) x adj W0 G0 W1 (ix2 r c) = mm (M := 10000) (K := 128) (N := 128) (val_main_v11 (F := Ideal) x adj W0 G0) W1 r c := by
  rw [val_main_v12_apply]
  exact Finset.sum_congr rfl fun k _ => by
    rw [show lidx_main_v12 (ix2 r c) k = ix2 r k from funext fun a => by match a with | ⟨0, _⟩ => rfl | ⟨1, _⟩ => rfl,
      show ridx_main_v12 (ix2 r c) k = ix2 k c from funext fun a => by match a with | ⟨0, _⟩ => rfl | ⟨1, _⟩ => rfl]

theorem v13_entries (r : Fin 10000) (c : Fin 128) :
    val_main_v13 (F := Ideal) x adj W0 G0 G1 (ix2 r c) = mm (M := 10000) (K := 128) (N := 128) (val_main_v11 (F := Ideal) x adj W0 G0) G1 r c := by
  rw [val_main_v13_apply]
  exact Finset.sum_congr rfl fun k _ => by
    rw [show lidx_main_v13 (ix2 r c) k = ix2 r k from funext fun a => by match a with | ⟨0, _⟩ => rfl | ⟨1, _⟩ => rfl,
      show ridx_main_v13 (ix2 r c) k = ix2 k c from funext fun a => by match a with | ⟨0, _⟩ => rfl | ⟨1, _⟩ => rfl]

theorem v14_entries (r : Fin 10000) (c : Fin 128) :
    val_main_v14 (F := Ideal) x adj W0 G0 W1 (ix2 r c) = mm (M := 10000) (K := 10000) (N := 128) adj (val_main_v12 (F := Ideal) x adj W0 G0 W1) r c := by
  rw [val_main_v14_apply]
  exact Finset.sum_congr rfl fun k _ => by
    rw [show lidx_main_v14 (ix2 r c) k = ix2 r k from funext fun a => by match a with | ⟨0, _⟩ => rfl | ⟨1, _⟩ => rfl,
      show ridx_main_v14 (ix2 r c) k = ix2 k c from funext fun a => by match a with | ⟨0, _⟩ => rfl | ⟨1, _⟩ => rfl]

theorem v15_entries (r : Fin 10000) (c : Fin 128) :
    val_main_v15 (F := Ideal) x adj W0 G0 G1 (ix2 r c) = mm (M := 10000) (K := 10000) (N := 128) adj (val_main_v13 (F := Ideal) x adj W0 G0 G1) r c := by
  rw [val_main_v15_apply]
  exact Finset.sum_congr rfl fun k _ => by
    rw [show lidx_main_v15 (ix2 r c) k = ix2 r k from funext fun a => by match a with | ⟨0, _⟩ => rfl | ⟨1, _⟩ => rfl,
      show ridx_main_v15 (ix2 r c) k = ix2 k c from funext fun a => by match a with | ⟨0, _⟩ => rfl | ⟨1, _⟩ => rfl]

theorem v12_eq : val_main_v12 (F := Ideal) x adj W0 G0 W1 = ofEntries (mm (val_main_v11 (F := Ideal) x adj W0 G0) W1) :=
  mat_ext fun r c => (v12_entries x adj W0 G0 W1 r c).trans (ofEntries_ix2 _ r c).symm
theorem v13_eq : val_main_v13 (F := Ideal) x adj W0 G0 G1 = ofEntries (mm (val_main_v11 (F := Ideal) x adj W0 G0) G1) :=
  mat_ext fun r c => (v13_entries x adj W0 G0 G1 r c).trans (ofEntries_ix2 _ r c).symm

theorem v21_apply' (i : S10000x128.Idx) :
    val_main_v21 (F := Ideal) x adj W0 G0 G1 i = Ideal.logistic (val_main_v15 (F := Ideal) x adj W0 G0 G1 i) := by
  rw [val_main_v21_apply, val_main_v20_apply, val_main_cst_2_apply, val_main_v19_apply, val_main_v18_apply,
    val_main_cst_1_apply, val_main_v17_apply, val_main_v16_apply]
  show Ideal.div (Ideal.ofBits .f32 0x3F800000#32) (Ideal.ofBits .f32 0x3F800000#32 + Ideal.exp (-(val_main_v15 (F := Ideal) x adj W0 G0 G1 i))) = _
  rw [one_f32]
  rfl

/-- The reference's result is the network's result of the specification. -/
theorem result_eq : val_main_v22 (F := Ideal) x adj W0 G0 W1 G1 = logits x adj W0 G0 W1 G1 := by
  unfold logits
  refine mat_ext fun r c => ?_
  rw [val_main_v22_apply, v21_apply', v15_entries, v14_entries, v12_eq, v13_eq, v11_eq, ofEntries_ix2]
  rfl

end Cert.ReferenceIdeal.RefValue

end
-- ==== Proof.lean ====
/-
  The kernel and its reference compute the same two-layer gated graph convolution, entry by entry, over the
  extended reals.

  The reference forms, per layer, the four products h · W, h · G, adj · (h · W), adj · (h · G), gates the third by the
  logistic function of the fourth, and between the layers keeps the larger of each entry and zero.  The kernel lays
  each layer's weights side by side, [W | G], projects once onto the 256 columns, multiplies by the adjacency once
  (in 25 blocks of 400 rows) and reads the support value in column c and the gate value in column 128 + c; its second
  launch also multiplies the activations by the next layer's side-by-side weights.  Column c of h · [W | G] is column c
  of h · W and column 128 + c is column c of h · G, summand by summand, so the two results are the same term of sums
  and products: no sum is reordered and no factor crosses a sum, and the equality holds on all extended reals without
  any use of the inputs' finiteness.  The kernel's changes of float format are the identity on the extended reals, its
  logistic function is the reference's quotient 1 / (1 + exp (−v)), and both take the larger of an entry and zero.

  The three frames are the generated ones (the reference's is its generated run with the result dropped); the
  idealization rewrote nothing, so the kernel's idealization claim is trivial.
-/
import proofs.«106500_g21887153340606_cont_8to1_464_4_alg».proof.Defs
import proofs.«106500_g21887153340606_cont_8to1_464_4_alg».proof.Proof.Gen.Kernel
import proofs.«106500_g21887153340606_cont_8to1_464_4_alg».proof.Proof.Gen.Kernel.Skeleton
import proofs.«106500_g21887153340606_cont_8to1_464_4_alg».proof.Proof.Gen.Kernel.Launch
import proofs.«106500_g21887153340606_cont_8to1_464_4_alg».proof.Proof.Gen.Kernel.Points
import proofs.«106500_g21887153340606_cont_8to1_464_4_alg».proof.Proof.Gen.Kernel.Frame
import proofs.«106500_g21887153340606_cont_8to1_464_4_alg».proof.Proof.Gen.KernelIdeal
import proofs.«106500_g21887153340606_cont_8to1_464_4_alg».proof.Proof.Gen.KernelIdeal.Skeleton
import proofs.«106500_g21887153340606_cont_8to1_464_4_alg».proof.Proof.Gen.KernelIdeal.Launch
import proofs.«106500_g21887153340606_cont_8to1_464_4_alg».proof.Proof.Gen.KernelIdeal.Points
import proofs.«106500_g21887153340606_cont_8to1_464_4_alg».proof.Proof.Gen.KernelIdeal.Frame
import proofs.«106500_g21887153340606_cont_8to1_464_4_alg».proof.Proof.Gen.ReferenceIdeal
import proofs.«106500_g21887153340606_cont_8to1_464_4_alg».proof.Proof.Gen.Pre_finite_inputs
import proofs.«106500_g21887153340606_cont_8to1_464_4_alg».proof.Proof.Gen.ReferenceIdeal.Run
import proofs.«106500_g21887153340606_cont_8to1_464_4_alg».proof.Proof.Gen.ReferenceIdeal.Read
import proofs.«106500_g21887153340606_cont_8to1_464_4_alg».proof.Proof.KernelValue
import proofs.«106500_g21887153340606_cont_8to1_464_4_alg».proof.Proof.RefLogits
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both programs end with the network's result of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v22_eq, Cert.ReferenceIdeal.RefValue.result_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
